-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_v13) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8388608 : Shape := ⟨2, ![4, 8388608]⟩
abbrev S_ : Shape := ⟨0, ![]⟩

class Facts : Prop where
  bcast_S_S4x8388608 : S_.BroadcastsInDim S4x8388608 (![] : Fin 0 → Fin S4x8388608.rank)
  reducesTo_S4x8388608_S_d0_1 : S4x8388608.ReducesTo [0, 1] S_
  h_S_ : 0 < S_.numel

variable [Facts]

def fn {F : FTy → Type} [FloatOps F] (main_arg0 : FVec F S4x8388608 .f32) : IVec S_ 1 :=
  let main_v0 : FVec F S4x8388608 .f32 := Host.absf main_arg0
  let main_cst : FVec F S_ .f32 := constant S_ .f32 0x7F800000#32
  let main_v1 : FVec F S4x8388608 .f32 := broadcastInDim S4x8388608 ![] bcast_S_S4x8388608 main_cst
  let main_v2 : IVec S4x8388608 1 := cmpf .olt main_v0 main_v1
  let main_c : IVec S_ 1 := constantI S_ 1 1#1
  let main_v3 : IVec S_ 1 := (fun x v => Host.reduce IntOp.andi x v reducesTo_S4x8388608_S_d0_1 h_S_) main_v2 main_c
  main_v3
-- ==== Kernel.lean ====
abbrev S4x8388608 : Shape := ⟨2, ![4, 8388608]⟩
abbrev S1x8388608 : Shape := ⟨2, ![1, 8388608]⟩
abbrev S3x8388608 : Shape := ⟨2, ![3, 8388608]⟩
abbrev S1 : Shape := ⟨1, ![1]⟩
abbrev S3 : Shape := ⟨1, ![3]⟩
abbrev S_ : Shape := ⟨0, ![]⟩

abbrev nBuf : Space → Nat
  | .hbm => 3
  | .vmem => 0
  | .smem => 0
  | _ => 0

abbrev bufTy : (tb : Table) → Fin (tcTables nBuf tb) → BufTy
  | .hbm, ⟨0, _⟩ => ⟨S4x8388608, .f32⟩
  | .hbm, ⟨1, _⟩ => ⟨S1x8388608, .f32⟩
  | .hbm, ⟨2, _⟩ => ⟨S3x8388608, .f32⟩
  | _, _ => ⟨S4x8388608, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩

abbrev nD : Nat := 1
abbrev τ : Topo := Topo.v7x

variable {F : FTy → Type} [FloatOps F]

abbrev grid0 : Pipeline.Grid := .none

class Facts₀ : Prop where
  inb_S1_S1_0 : ∀ a, (![0] : Fin 1 → Nat) a + S1.size a ≤ S1.size a
  squeezes_S1_S_ : S1.Squeezes S_
  inb_S4x8388608_S1x8388608_0_0 : ∀ a, (![0, 0] : Fin 2 → Nat) a + S1x8388608.size a ≤ S4x8388608.size a
  inb_S3_S1_0 : ∀ a, (![0] : Fin 1 → Nat) a + S1.size a ≤ S3.size a
  inb_S4x8388608_S3x8388608_1_0 : ∀ a, (![1, 0] : Fin 2 → Nat) a + S3x8388608.size a ≤ S4x8388608.size a
  hcc0_scratch0 : 0 + S1.numel ≤ 4
  hcc0_scratch1 : 1 + S3.numel ≤ 4

variable [Facts₀]

abbrev cc0_scratch0 : DmaSems sig S1 := SemArray.consecutive 0 S1 hcc0_scratch0
abbrev cc0_scratch1 : DmaSems sig S3 := SemArray.consecutive 1 S3 hcc0_scratch1

abbrev win0 : Fin 0 → Pipeline.Window sig grid0 := Fin.elim0
abbrev spec0 : Fin 0 → Pipeline.WinSpec sig grid0.rank := Fin.elim0

class Facts : Prop extends Facts₀ where

variable [Facts]
-- ==== ReferenceIdeal.lean ====
abbrev S4x8388608 : Shape := ⟨2, ![4, 8388608]⟩
abbrev S1 : Shape := ⟨1, ![1]⟩
abbrev S3 : Shape := ⟨1, ![3]⟩
abbrev S_ : Shape := ⟨0, ![]⟩
abbrev S1x1 : Shape := ⟨2, ![1, 1]⟩
abbrev S1x8388608 : Shape := ⟨2, ![1, 8388608]⟩
abbrev S3x1 : Shape := ⟨2, ![3, 1]⟩
abbrev S3x8388608 : Shape := ⟨2, ![3, 8388608]⟩

abbrev nBuf : Space → Nat
  | .hbm => 21
  | .vmem => 0
  | .smem => 0
  | _ => 0

abbrev bufTy : (tb : Table) → Fin (tcTables nBuf tb) → BufTy
  | .hbm, ⟨0, _⟩ => ⟨S4x8388608, .f32⟩
  | .hbm, ⟨1, _⟩ => ⟨S1, .i32⟩
  | .hbm, ⟨2, _⟩ => ⟨S3, .i32⟩
  | .hbm, ⟨3, _⟩ => ⟨S_, .i32⟩
  | .hbm, ⟨4, _⟩ => ⟨S1, .i32⟩
  | .hbm, ⟨5, _⟩ => ⟨S1, .i1⟩
  | .hbm, ⟨6, _⟩ => ⟨S_, .i32⟩
  | .hbm, ⟨7, _⟩ => ⟨S1, .i32⟩
  | .hbm, ⟨8, _⟩ => ⟨S1, .i32⟩
  | .hbm, ⟨9, _⟩ => ⟨S1, .i32⟩
  | .hbm, ⟨10, _⟩ => ⟨S1x1, .i32⟩
  | .hbm, ⟨11, _⟩ => ⟨S1x8388608, .f32⟩
  | .hbm, ⟨12, _⟩ => ⟨S_, .i32⟩
  | .hbm, ⟨13, _⟩ => ⟨S3, .i32⟩
  | .hbm, ⟨14, _⟩ => ⟨S3, .i1⟩
  | .hbm, ⟨15, _⟩ => ⟨S_, .i32⟩
  | .hbm, ⟨16, _⟩ => ⟨S3, .i32⟩
  | .hbm, ⟨17, _⟩ => ⟨S3, .i32⟩
  | .hbm, ⟨18, _⟩ => ⟨S3, .i32⟩
  | .hbm, ⟨19, _⟩ => ⟨S3x1, .i32⟩
  | .hbm, ⟨20, _⟩ => ⟨S3x8388608, .f32⟩
  | _, _ => ⟨S4x8388608, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_c_0 : Ref sig .tc := ⟨.hbm, 2, rfl⟩
abbrev main_c_1 : Ref sig .tc := ⟨.hbm, 3, rfl⟩
abbrev main_v0 : Ref sig .tc := ⟨.hbm, 4, rfl⟩
abbrev main_v1 : Ref sig .tc := ⟨.hbm, 5, rfl⟩
abbrev main_c_2 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c_3 : Ref sig .tc := ⟨.hbm, 12, rfl⟩
abbrev main_v7 : Ref sig .tc := ⟨.hbm, 13, rfl⟩
abbrev main_v8 : Ref sig .tc := ⟨.hbm, 14, rfl⟩
abbrev main_c_4 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩

abbrev nD : Nat := 1
abbrev τ : Topo := Topo.v7x

variable {F : FTy → Type} [FloatOps F]

class Facts₀ : Prop where
  bcast_S_S1 : S_.BroadcastsInDim S1 (![] : Fin 0 → Fin S1.rank)
  bcast_S1_S1x1_0 : S1.BroadcastsInDim S1x1 (![0] : Fin 1 → Fin S1x1.rank)
  bcast_S_S3 : S_.BroadcastsInDim S3 (![] : Fin 0 → Fin S3.rank)
  bcast_S3_S3x1_0 : S3.BroadcastsInDim S3x1 (![0] : Fin 1 → Fin S3x1.rank)
  gather_S4x8388608_S1x1_S1x8388608_1_0_n_n_0_1_18388608_wf : GatherDims.WF S4x8388608 S1x1 S1x8388608 [1] [0] [] [0] [] 1 ![1, 8388608]
  gather_S4x8388608_S3x1_S3x8388608_1_0_n_n_0_1_18388608_wf : GatherDims.WF S4x8388608 S3x1 S3x8388608 [1] [0] [] [0] [] 1 ![1, 8388608]

variable [Facts₀]

def gather_S4x8388608_S1x1_S1x8388608_1_0_n_n_0_1_18388608 : GatherDims S4x8388608 S1x1 S1x8388608 where
  offsetDims := [1]
  collapsedSliceDims := [0]
  operandBatchingDims := []
  startIndicesBatchingDims := []
  startIndexMap := [0]
  indexVectorDim := 1
  sliceSizes := ![1, 8388608]
  wf := gather_S4x8388608_S1x1_S1x8388608_1_0_n_n_0_1_18388608_wf
def gather_S4x8388608_S3x1_S3x8388608_1_0_n_n_0_1_18388608 : GatherDims S4x8388608 S3x1 S3x8388608 where
  offsetDims := [1]
  collapsedSliceDims := [0]
  operandBatchingDims := []
  startIndicesBatchingDims := []
  startIndexMap := [0]
  indexVectorDim := 1
  sliceSizes := ![1, 8388608]
  wf := gather_S4x8388608_S3x1_S3x8388608_1_0_n_n_0_1_18388608_wf

class Facts : Prop extends Facts₀ where

variable [Facts]
-- ==== Proof.KernelBody.lean ====
/-
  The routing kernel's body at its one grid point. The body starts two transfers between arrays left in HBM, each
  on a DMA semaphore of the kernel's own — row 0 of the input into the whole of result 0 on cell 0, rows 1..3 of the
  input into the whole of result 1 on cell 1 — and then waits for both, in that order. While a transfer is in flight
  its source rows and its destination are lent to it; the two source windows are disjoint rectangles of the input, so
  both transfers are in flight at once; each wait returns what its transfer borrowed. Afterwards the input is held
  whole at the contents it started with, each result is held whole at its old contents overwritten everywhere by
  what its transfer moved (the input read through the transfer's source rectangle), both cells are back at zero, and
  the two waits are recorded.
-/
import proofs.«167561_j46308337386319_2_alg».proof.Proof.Gen.Kernel
import proofs.«167561_j46308337386319_2_alg».proof.Proof.Gen.Kernel.Launch
import proofs.«167561_j46308337386319_2_alg».proof.Proof.Gen.Kernel.Points
import Idealize.ShloMosaic.Lib.Transfers
import Idealize.ShloMosaic.Lib.Writes
import Idealize.ShloMosaic.Lib.Pipeline.FrameBody
import Idealize.ShloMosaic.Lib.Pipeline.Routed
import Idealize.ShloMosaic.Lib.Tactic

noncomputable section

namespace Cert.Kernel.Copy

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The user algebra: the pipeline's rounds copy beside the counters local transfers draw their tokens from. -/
abbrev UC : Type := UR sig nD τ × Counters
local notation "𝕄" => MT nD τ sig Unit (Elt F) ℕ UC ℕ

/-- A memref's buffer on core `c`: its contents type, and the buffer held whole at contents `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

/-- The source of the first transfer: row 0 of the input. The source of the second: rows 1..3. -/
abbrev srcTop : Memref sig .tc .hbm S1x8388608 .f32 :=
  (Memref.whole main_arg0).slice (Rect.unit (s := S4x8388608) ![0, 0] S1x8388608.size inb_S4x8388608_S1x8388608_0_0) (fun _ => rfl)
abbrev srcRest : Memref sig .tc .hbm S3x8388608 .f32 :=
  (Memref.whole main_arg0).slice (Rect.unit (s := S4x8388608) ![1, 0] S3x8388608.size inb_S4x8388608_S3x8388608_1_0) (fun _ => rfl)

section Contents

variable (c : Dev nD) (fa : Bf (F := F) c (Memref.whole main_arg0))

/-- What each transfer moves: its source rows as the input holds them. -/
abbrev movedTop : S1x8388608.Idx → Elt F .f32 := ReadAs.same.apply (srcTop.view.read (Elt F) fa)
abbrev movedRest : S3x8388608.Idx → Elt F .f32 := ReadAs.same.apply (srcRest.view.read (Elt F) fa)

/-- Each result once its transfer has landed: overwritten everywhere by what was moved. -/
abbrev outTop (f0 : Bf (F := F) c (Memref.whole main_v0_0)) : Bf (F := F) c (Memref.whole main_v0_0) :=
  (Memref.whole main_v0_0).view.write (Elt F) f0 (movedTop c fa) Finset.univ
abbrev outRest (f1 : Bf (F := F) c (Memref.whole main_v0_1)) : Bf (F := F) c (Memref.whole main_v0_1) :=
  (Memref.whole main_v0_1).view.write (Elt F) f1 (movedRest c fa) Finset.univ

end Contents

variable (c : Dev nD) (fa : Bf (F := F) c (Memref.whole main_arg0)) (f0 : Bf (F := F) c (Memref.whole main_v0_0))
  (f1 : Bf (F := F) c (Memref.whole main_v0_1)) (W : Waits sig Unit)

set_option sl_exec.dmaWindow true in
/-- The body, from the three arrays held whole and cells 0 and 1 at zero: both transfers are issued, both waits
    return, and the arrays come back whole — the input unchanged, each result at what its transfer moved. -/
theorem run0 (Q : PUnit → sProp 𝕄) :
    iprop(pt c (Memref.whole main_arg0) fa ∗ pt c (Memref.whole main_v0_0) f0 ∗ pt c (Memref.whole main_v0_1) f1
      ∗ semVal ((c : Thread nD τ), SemLoc.dma (0 : DmaSem sig)) 0 ∗ semVal ((c : Thread nD τ), SemLoc.dma (1 : DmaSem sig)) 0
      ∗ owes (c : Thread nD τ) 0 W
      ∗ (iprop(pt c (Memref.whole main_arg0) fa ∗ pt c (Memref.whole main_v0_0) (outTop c fa f0)
          ∗ pt c (Memref.whole main_v0_1) (outRest c fa f1)
          ∗ semVal ((c : Thread nD τ), SemLoc.dma (0 : DmaSem sig)) 0 ∗ semVal ((c : Thread nD τ), SemLoc.dma (1 : DmaSem sig)) 0
          ∗ owes (c : Thread nD τ) 0 (insert (SemLoc.dma (1 : DmaSem sig), default) (insert (SemLoc.dma (0 : DmaSem sig), default) W))) -∗ Q ⟨⟩))
      ⊢ wp frame (wpE (defs₀ (F := F)) Variants.none c none) Set.univ
          (cc0__kernel (F := F) (Memref.whole main_arg0) (Memref.isWhole_whole _) (Memref.whole main_v0_0) (Memref.isWhole_whole _)
            (Memref.whole main_v0_1) (Memref.isWhole_whole _) cc0_scratch0 cc0_scratch1) Q := by
  iintro ⟨Ha, H0, H1, Hs0, Hs1, HO, Hk⟩
  sl_exec! (disch := decide)
  sl_step
  iapply Hk
  isplitl [Ha]; · iexact Ha
  isplitl [H0]; · iexact H0
  isplitl [H1]; · iexact H1
  isplitl [Hs0]; · iexact Hs0
  isplitl [Hs1]; · iexact Hs1
  iexact HO

end Cert.Kernel.Copy

end
-- ==== Proof.KernelRun.lean ====
/-
  The routing kernel's run. @main is the kernel region alone, a pipeline of one grid point and no window: every
  array stays in HBM and the body moves the rows itself. The three arrays are therefore routed through the body's
  invariant: they enter whole at their launch contents with the kernel's four DMA cells at zero, and leave whole —
  the input as launched, result 0 overwritten by row 0 of the input, result 1 overwritten by rows 1..3 — with the
  cells at zero again. From any launch memory every weakly fair execution of @main terminates, and in every final
  state the three arrays hold exactly those contents.
-/
import proofs.«167561_j46308337386319_2_alg».proof.Proof.KernelBody
import proofs.«167561_j46308337386319_2_alg».proof.Proof.Gen.Kernel.Frame
import Idealize.ShloMosaic.Lib.Pipeline.Routed

noncomputable section

namespace Cert.Kernel.Copy

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation Ends RoutedPost routed)

variable {F : FTy → Type} [FloatOps F]

local notation "𝕄" => MT nD τ sig Unit (Elt F) ℕ UC ℕ

variable (m : (ℓ : Loc nD τ sig) → Buf (Elt F) ℓ) (ρ : Dev nD → PrngReg)

/-- The kernel's own cells: its four scratch DMA semaphores (the body uses the first two). -/
abbrev osem : Fin 4 → SemLoc sig := fun | 0 => .dma 0 | 1 => .dma 1 | 2 => .dma 2 | 3 => .dma 3

/-- The arrays the body's transfers touch: the input and both results. -/
abbrev R : Finset (Ref sig .tc) := {main_arg0, main_v0_0, main_v0_1}

/-- The routed arrays' contents when the region is left: the input as it entered, each result overwritten by the
    rows moved into it. -/
def Y (c : Dev nD) : (b : Ref sig .tc) → Buf (Elt F) ((c : Thread nD τ).loc b) :=
  Function.update (Function.update (V m c) main_v0_0 (outTop c (V m c main_arg0) (V m c main_v0_0)))
    main_v0_1 (outRest c (V m c main_arg0) (V m c main_v0_1))

theorem Y_main_v0_1 (c : Dev nD) : Y m c main_v0_1 = outRest c (V m c main_arg0) (V m c main_v0_1) := Function.update_self ..
theorem Y_main_v0_0 (c : Dev nD) : Y m c main_v0_0 = outTop c (V m c main_arg0) (V m c main_v0_0) := by
  unfold Y; rw [Function.update_of_ne (by decide), Function.update_self]
theorem Y_main_arg0 (c : Dev nD) : Y m c main_arg0 = V m c main_arg0 := by
  unfold Y; rw [Function.update_of_ne (by decide), Function.update_of_ne (by decide)]

/-- The proof data on core `c`: no window, so no array and no staging contents to state; the invariant is the routed
    arrays, the cells and the rest, at the entry contents before the point and at the exit contents after it. -/
def dats (_ : Fin 1) (c : Dev nD) : Dat τ (Elt F) Unit ℕ UC ℕ cfg0 c where
  A w := w.elim0
  after w _ := w.elim0
  Φ t := match t with
    | ⟨0, _⟩ => Ends cfg0.spec osem R c (V m c)
    | ⟨_ + 1, _⟩ => Ends cfg0.spec osem R c (Y m c)
  q _ := fullShare
  owed _ := 0

abbrev 𝒱₀ : Variants := Variants.none

omit [FloatOps F] in
/-- The four cells at zero, one by one. -/
theorem ownSems0_eq (c : Dev nD) :
    (Pipeline.ownSems0 (Ix := Unit) (Name := ℕ) (U := UC) (Lvl := ℕ) (Val := Elt F) (τ := τ) osem c : sProp 𝕄)
      = iprop(semVal ((c : Thread nD τ), SemLoc.dma (0 : DmaSem sig)) 0 ∗ semVal ((c : Thread nD τ), SemLoc.dma (1 : DmaSem sig)) 0
          ∗ semVal ((c : Thread nD τ), SemLoc.dma (2 : DmaSem sig)) 0 ∗ semVal ((c : Thread nD τ), SemLoc.dma (3 : DmaSem sig)) 0) :=
  Pipeline.ownSems0_eq_of_list c osem [0, 1, 2, 3] (by decide) (by decide)

omit [FloatOps F] in
/-- The routed arrays, one by one. -/
theorem routed_eq (c : Dev nD) (W : (b : Ref sig .tc) → Buf (Elt F) ((c : Thread nD τ).loc b)) :
    (routed R c W : sProp 𝕄)
      = iprop(pt c (Memref.whole main_arg0) (W main_arg0) ∗ pt c (Memref.whole main_v0_0) (W main_v0_0) ∗ pt c (Memref.whole main_v0_1) (W main_v0_1)) := by
  unfold routed
  rw [BI.bigSep_insert (by decide), BI.bigSep_insert (by decide), BI.bigSep_singleton]
  rfl

omit [FloatOps F] in
/-- The invariant's two ends taken apart: the three arrays, the four cells, no other scoped buffer, the register. -/
theorem ends_eq (c : Dev nD) (W : (b : Ref sig .tc) → Buf (Elt F) ((c : Thread nD τ).loc b)) :
    (Ends cfg0.spec osem R c W : sProp 𝕄)
      = iprop((pt c (Memref.whole main_arg0) (W main_arg0) ∗ pt c (Memref.whole main_v0_0) (W main_v0_0) ∗ pt c (Memref.whole main_v0_1) (W main_v0_1))
          ∗ (semVal ((c : Thread nD τ), SemLoc.dma (0 : DmaSem sig)) 0 ∗ semVal ((c : Thread nD τ), SemLoc.dma (1 : DmaSem sig)) 0
              ∗ semVal ((c : Thread nD τ), SemLoc.dma (2 : DmaSem sig)) 0 ∗ semVal ((c : Thread nD τ), SemLoc.dma (3 : DmaSem sig)) 0)
          ∗ emp ∗ ∃ r, prngReg c r) := by
  unfold Ends; rw [routed_eq, ownSems0_eq, scopedRest0_eq]
  rfl

/-- The core's debt as the next point wants it, from what the body hands back: nothing is owed and any record of
    waits is within the bound. -/
theorem owesAt_intro (c : Dev nD) (t : Fin (cfg0.N + 1)) (W' : Waits sig Unit) :
    owes (c : Thread nD τ) 0 W' ⊢ ((dats m 0 c).owesAt () t : sProp 𝕄) := by
  unfold Dat.owesAt Pipeline.owesWithin
  rw [show (dats m 0 c).owed t = 0 from rfl]
  iintro HO; iexists W'; isplitr; · ipureintro; exact fun _ _ => Or.inl trivial
  iexact HO

/-- The body at the one point: the entry invariant taken apart, the body's run applied, the exit invariant put
    together. The pipeline stages nothing, so beside the invariant and the debt there is nothing to hand over. -/
theorem sound_body (c : Dev nD) (t : Fin cfg0.N) :
    iprop((dats m 0 c).Φ t.castSucc ∗ (dats m 0 c).owesAt () t.castSucc ∗ emp)
      ⊢ wp frame (wpE (defs₀ (F := F)) Variants.none c none) Set.univ (bodyAt0 (F := F) t)
          (fun _ => iprop((dats m 0 c).Φ t.succ ∗ (dats m 0 c).owesAt () t.succ ∗ emp)) := by
  obtain rfl := fin_N0 t
  unfold bodyAt0
  rw [show (dats m 0 c).Φ t0_0.castSucc = Ends cfg0.spec osem R c (V m c) from rfl,
    show (dats m 0 c).Φ t0_0.succ = Ends cfg0.spec osem R c (Y m c) from rfl, ends_eq, ends_eq, Y_main_arg0, Y_main_v0_0, Y_main_v0_1]
  unfold Dat.owesAt Pipeline.owesWithin
  rw [show (dats m 0 c).owed t0_0.castSucc = 0 from rfl]
  iintro ⟨⟨⟨Ha, H0, H1⟩, ⟨Hs0, Hs1, Hs2, Hs3⟩, He, Hp⟩, ⟨%W, %hW, HO⟩, -⟩
  iapply (run0 c (V m c main_arg0) (V m c main_v0_0) (V m c main_v0_1) W)
  isplitl [Ha]; · iexact Ha
  isplitl [H0]; · iexact H0
  isplitl [H1]; · iexact H1
  isplitl [Hs0]; · iexact Hs0
  isplitl [Hs1]; · iexact Hs1
  isplitl [HO]; · iexact HO
  iintro ⟨Ha, H0, H1, Hs0, Hs1, HO⟩
  isplitl [Ha H0 H1 Hs0 Hs1 Hs2 Hs3 He Hp]
  · isplitl [Ha H0 H1]
    · isplitl [Ha]; · iexact Ha
      isplitl [H0]; · iexact H0
      iexact H1
    isplitl [Hs0 Hs1 Hs2 Hs3]
    · isplitl [Hs0]; · iexact Hs0
      isplitl [Hs1]; · iexact Hs1
      isplitl [Hs2]; · iexact Hs2
      iexact Hs3
    isplitl [He]; · iexact He
    iexact Hp
  isplitl [HO]
  · iexists (insert (SemLoc.dma (1 : DmaSem sig), default) (insert (SemLoc.dma (0 : DmaSem sig), default) W))
    isplitr; · ipureintro; exact fun _ _ => Or.inl trivial
    iexact HO
  iempintro

/-- The library's body obligation: with no window its staging conjuncts are empty. -/
theorem body_obligation (c : Dev nD) : BodyObligation (dats (F := F) m 0 c) (defs₀ (F := F)) 𝒱₀ () Set.univ := fun t => by
  rw [show (Finset.univ : Finset (Fin cfg0.W)) = ∅ from rfl, BI.bigSep_empty, BI.bigSep_empty]
  exact sound_body m c t

/-- The layout the launch needs of the kernel's own cells: scoped, distinct, none a staging semaphore. -/
theorem ownSemFacts : Pipeline.OwnSemFacts cfg0.spec osem := by decide

/-- At the compiled mesh, for any float values, from any memory with zero counters: every weakly fair execution of
    @main terminates, and every final state has the three routed arrays at their exit contents. -/
theorem run_main : θ_run defs (onTc (τ := τ) (main (F := F))) (s₀ m ρ) (RoutedPost cfgs (dats m) 0 R (V m) (Y m)) :=
  Pipeline.θ_run_frame_routed cfgs (dats m) 0 launch0 ownSemFacts defs₀ 𝒱₀ m ρ main
    (hbody := fun c => (body_obligation m c).loose) (hshare := fun _ w => w.elim0)
    (howed := fun _ _ => rfl) (V := V m)
    (hmain := Pipeline.hmain_region cfgs 0 defs₀ 𝒱₀ m main fun c => (main_chain c).trans rfl)
    (hA := fun _ w => w.elim0) (R := R) (hR := by decide) (Y := Y m) (hin := fun _ => .rfl) (hout := fun _ => .rfl)

/-! ## The final contents, read off the post -/

variable {m ρ}

theorem final_arg0 {r : PUnit × MemSt nD τ sig (Elt F)} (h : RoutedPost cfgs (dats m) 0 R (V m) (Y m) r) (c : Dev nD) :
    r.2.mem ((c : Thread nD τ).loc main_arg0) = m ((c : Thread nD τ).loc main_arg0) :=
  ((h c).2.1 main_arg0 (by decide)).trans ((Y_main_arg0 m c).trans (V_main_arg0 m c))

theorem final_v0_0 {r : PUnit × MemSt nD τ sig (Elt F)} (h : RoutedPost cfgs (dats m) 0 R (V m) (Y m) r) (c : Dev nD) :
    r.2.mem ((c : Thread nD τ).loc main_v0_0) = outTop c (V m c main_arg0) (V m c main_v0_0) :=
  ((h c).2.1 main_v0_0 (by decide)).trans (Y_main_v0_0 m c)

theorem final_v0_1 {r : PUnit × MemSt nD τ sig (Elt F)} (h : RoutedPost cfgs (dats m) 0 R (V m) (Y m) r) (c : Dev nD) :
    r.2.mem ((c : Thread nD τ).loc main_v0_1) = outRest c (V m c main_arg0) (V m c main_v0_1) :=
  ((h c).2.1 main_v0_1 (by decide)).trans (Y_main_v0_1 m c)

variable (m ρ)

/-- The frame: every weakly fair execution terminates, nothing faults, and the input ends as launched. -/
theorem frame : θ_run defs (onTc (τ := τ) (main (F := F))) ⟨m, fun _ => 0, ρ⟩ (fun r => ∀ c : Dev nD,
    r.2.mem ((c.tc : Thread nD τ).loc main_arg0) = m ((c.tc : Thread nD τ).loc main_arg0)) :=
  (θ_run defs _ _).mono (fun _ h c => final_arg0 h c) (run_main m ρ)

end Cert.Kernel.Copy

end
-- ==== Proof.KernelIdealBody.lean ====
/-
  The routing kernel's body at its one grid point. The body starts two transfers between arrays left in HBM, each
  on a DMA semaphore of the kernel's own — row 0 of the input into the whole of result 0 on cell 0, rows 1..3 of the
  input into the whole of result 1 on cell 1 — and then waits for both, in that order. While a transfer is in flight
  its source rows and its destination are lent to it; the two source windows are disjoint rectangles of the input, so
  both transfers are in flight at once; each wait returns what its transfer borrowed. Afterwards the input is held
  whole at the contents it started with, each result is held whole at its old contents overwritten everywhere by
  what its transfer moved (the input read through the transfer's source rectangle), both cells are back at zero, and
  the two waits are recorded.
-/
import proofs.«167561_j46308337386319_2_alg».proof.Proof.Gen.KernelIdeal
import proofs.«167561_j46308337386319_2_alg».proof.Proof.Gen.KernelIdeal.Launch
import proofs.«167561_j46308337386319_2_alg».proof.Proof.Gen.KernelIdeal.Points
import Idealize.ShloMosaic.Lib.Transfers
import Idealize.ShloMosaic.Lib.Writes
import Idealize.ShloMosaic.Lib.Pipeline.FrameBody
import Idealize.ShloMosaic.Lib.Pipeline.Routed
import Idealize.ShloMosaic.Lib.Tactic

noncomputable section

namespace Cert.KernelIdeal.Copy

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The user algebra: the pipeline's rounds copy beside the counters local transfers draw their tokens from. -/
abbrev UC : Type := UR sig nD τ × Counters
local notation "𝕄" => MT nD τ sig Unit (Elt F) ℕ UC ℕ

/-- A memref's buffer on core `c`: its contents type, and the buffer held whole at contents `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

/-- The source of the first transfer: row 0 of the input. The source of the second: rows 1..3. -/
abbrev srcTop : Memref sig .tc .hbm S1x8388608 .f32 :=
  (Memref.whole main_arg0).slice (Rect.unit (s := S4x8388608) ![0, 0] S1x8388608.size inb_S4x8388608_S1x8388608_0_0) (fun _ => rfl)
abbrev srcRest : Memref sig .tc .hbm S3x8388608 .f32 :=
  (Memref.whole main_arg0).slice (Rect.unit (s := S4x8388608) ![1, 0] S3x8388608.size inb_S4x8388608_S3x8388608_1_0) (fun _ => rfl)

section Contents

variable (c : Dev nD) (fa : Bf (F := F) c (Memref.whole main_arg0))

/-- What each transfer moves: its source rows as the input holds them. -/
abbrev movedTop : S1x8388608.Idx → Elt F .f32 := ReadAs.same.apply (srcTop.view.read (Elt F) fa)
abbrev movedRest : S3x8388608.Idx → Elt F .f32 := ReadAs.same.apply (srcRest.view.read (Elt F) fa)

/-- Each result once its transfer has landed: overwritten everywhere by what was moved. -/
abbrev outTop (f0 : Bf (F := F) c (Memref.whole main_v0_0)) : Bf (F := F) c (Memref.whole main_v0_0) :=
  (Memref.whole main_v0_0).view.write (Elt F) f0 (movedTop c fa) Finset.univ
abbrev outRest (f1 : Bf (F := F) c (Memref.whole main_v0_1)) : Bf (F := F) c (Memref.whole main_v0_1) :=
  (Memref.whole main_v0_1).view.write (Elt F) f1 (movedRest c fa) Finset.univ

end Contents

variable (c : Dev nD) (fa : Bf (F := F) c (Memref.whole main_arg0)) (f0 : Bf (F := F) c (Memref.whole main_v0_0))
  (f1 : Bf (F := F) c (Memref.whole main_v0_1)) (W : Waits sig Unit)

set_option sl_exec.dmaWindow true in
/-- The body, from the three arrays held whole and cells 0 and 1 at zero: both transfers are issued, both waits
    return, and the arrays come back whole — the input unchanged, each result at what its transfer moved. -/
theorem run0 (Q : PUnit → sProp 𝕄) :
    iprop(pt c (Memref.whole main_arg0) fa ∗ pt c (Memref.whole main_v0_0) f0 ∗ pt c (Memref.whole main_v0_1) f1
      ∗ semVal ((c : Thread nD τ), SemLoc.dma (0 : DmaSem sig)) 0 ∗ semVal ((c : Thread nD τ), SemLoc.dma (1 : DmaSem sig)) 0
      ∗ owes (c : Thread nD τ) 0 W
      ∗ (iprop(pt c (Memref.whole main_arg0) fa ∗ pt c (Memref.whole main_v0_0) (outTop c fa f0)
          ∗ pt c (Memref.whole main_v0_1) (outRest c fa f1)
          ∗ semVal ((c : Thread nD τ), SemLoc.dma (0 : DmaSem sig)) 0 ∗ semVal ((c : Thread nD τ), SemLoc.dma (1 : DmaSem sig)) 0
          ∗ owes (c : Thread nD τ) 0 (insert (SemLoc.dma (1 : DmaSem sig), default) (insert (SemLoc.dma (0 : DmaSem sig), default) W))) -∗ Q ⟨⟩))
      ⊢ wp frame (wpE (defs₀ (F := F)) Variants.none c none) Set.univ
          (cc0__kernel (F := F) (Memref.whole main_arg0) (Memref.isWhole_whole _) (Memref.whole main_v0_0) (Memref.isWhole_whole _)
            (Memref.whole main_v0_1) (Memref.isWhole_whole _) cc0_scratch0 cc0_scratch1) Q := by
  iintro ⟨Ha, H0, H1, Hs0, Hs1, HO, Hk⟩
  sl_exec! (disch := decide)
  sl_step
  iapply Hk
  isplitl [Ha]; · iexact Ha
  isplitl [H0]; · iexact H0
  isplitl [H1]; · iexact H1
  isplitl [Hs0]; · iexact Hs0
  isplitl [Hs1]; · iexact Hs1
  iexact HO

end Cert.KernelIdeal.Copy

end
-- ==== Proof.KernelIdealRun.lean ====
/-
  The routing kernel's run. @main is the kernel region alone, a pipeline of one grid point and no window: every
  array stays in HBM and the body moves the rows itself. The three arrays are therefore routed through the body's
  invariant: they enter whole at their launch contents with the kernel's four DMA cells at zero, and leave whole —
  the input as launched, result 0 overwritten by row 0 of the input, result 1 overwritten by rows 1..3 — with the
  cells at zero again. From any launch memory every weakly fair execution of @main terminates, and in every final
  state the three arrays hold exactly those contents.
-/
import proofs.«167561_j46308337386319_2_alg».proof.Proof.KernelIdealBody
import proofs.«167561_j46308337386319_2_alg».proof.Proof.Gen.KernelIdeal.Frame
import Idealize.ShloMosaic.Lib.Pipeline.Routed

noncomputable section

namespace Cert.KernelIdeal.Copy

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation Ends RoutedPost routed)

variable {F : FTy → Type} [FloatOps F]

local notation "𝕄" => MT nD τ sig Unit (Elt F) ℕ UC ℕ

variable (m : (ℓ : Loc nD τ sig) → Buf (Elt F) ℓ) (ρ : Dev nD → PrngReg)

/-- The kernel's own cells: its four scratch DMA semaphores (the body uses the first two). -/
abbrev osem : Fin 4 → SemLoc sig := fun | 0 => .dma 0 | 1 => .dma 1 | 2 => .dma 2 | 3 => .dma 3

/-- The arrays the body's transfers touch: the input and both results. -/
abbrev R : Finset (Ref sig .tc) := {main_arg0, main_v0_0, main_v0_1}

/-- The routed arrays' contents when the region is left: the input as it entered, each result overwritten by the
    rows moved into it. -/
def Y (c : Dev nD) : (b : Ref sig .tc) → Buf (Elt F) ((c : Thread nD τ).loc b) :=
  Function.update (Function.update (V m c) main_v0_0 (outTop c (V m c main_arg0) (V m c main_v0_0)))
    main_v0_1 (outRest c (V m c main_arg0) (V m c main_v0_1))

theorem Y_main_v0_1 (c : Dev nD) : Y m c main_v0_1 = outRest c (V m c main_arg0) (V m c main_v0_1) := Function.update_self ..
theorem Y_main_v0_0 (c : Dev nD) : Y m c main_v0_0 = outTop c (V m c main_arg0) (V m c main_v0_0) := by
  unfold Y; rw [Function.update_of_ne (by decide), Function.update_self]
theorem Y_main_arg0 (c : Dev nD) : Y m c main_arg0 = V m c main_arg0 := by
  unfold Y; rw [Function.update_of_ne (by decide), Function.update_of_ne (by decide)]

/-- The proof data on core `c`: no window, so no array and no staging contents to state; the invariant is the routed
    arrays, the cells and the rest, at the entry contents before the point and at the exit contents after it. -/
def dats (_ : Fin 1) (c : Dev nD) : Dat τ (Elt F) Unit ℕ UC ℕ cfg0 c where
  A w := w.elim0
  after w _ := w.elim0
  Φ t := match t with
    | ⟨0, _⟩ => Ends cfg0.spec osem R c (V m c)
    | ⟨_ + 1, _⟩ => Ends cfg0.spec osem R c (Y m c)
  q _ := fullShare
  owed _ := 0

abbrev 𝒱₀ : Variants := Variants.none

omit [FloatOps F] in
/-- The four cells at zero, one by one. -/
theorem ownSems0_eq (c : Dev nD) :
    (Pipeline.ownSems0 (Ix := Unit) (Name := ℕ) (U := UC) (Lvl := ℕ) (Val := Elt F) (τ := τ) osem c : sProp 𝕄)
      = iprop(semVal ((c : Thread nD τ), SemLoc.dma (0 : DmaSem sig)) 0 ∗ semVal ((c : Thread nD τ), SemLoc.dma (1 : DmaSem sig)) 0
          ∗ semVal ((c : Thread nD τ), SemLoc.dma (2 : DmaSem sig)) 0 ∗ semVal ((c : Thread nD τ), SemLoc.dma (3 : DmaSem sig)) 0) :=
  Pipeline.ownSems0_eq_of_list c osem [0, 1, 2, 3] (by decide) (by decide)

omit [FloatOps F] in
/-- The routed arrays, one by one. -/
theorem routed_eq (c : Dev nD) (W : (b : Ref sig .tc) → Buf (Elt F) ((c : Thread nD τ).loc b)) :
    (routed R c W : sProp 𝕄)
      = iprop(pt c (Memref.whole main_arg0) (W main_arg0) ∗ pt c (Memref.whole main_v0_0) (W main_v0_0) ∗ pt c (Memref.whole main_v0_1) (W main_v0_1)) := by
  unfold routed
  rw [BI.bigSep_insert (by decide), BI.bigSep_insert (by decide), BI.bigSep_singleton]
  rfl

omit [FloatOps F] in
/-- The invariant's two ends taken apart: the three arrays, the four cells, no other scoped buffer, the register. -/
theorem ends_eq (c : Dev nD) (W : (b : Ref sig .tc) → Buf (Elt F) ((c : Thread nD τ).loc b)) :
    (Ends cfg0.spec osem R c W : sProp 𝕄)
      = iprop((pt c (Memref.whole main_arg0) (W main_arg0) ∗ pt c (Memref.whole main_v0_0) (W main_v0_0) ∗ pt c (Memref.whole main_v0_1) (W main_v0_1))
          ∗ (semVal ((c : Thread nD τ), SemLoc.dma (0 : DmaSem sig)) 0 ∗ semVal ((c : Thread nD τ), SemLoc.dma (1 : DmaSem sig)) 0
              ∗ semVal ((c : Thread nD τ), SemLoc.dma (2 : DmaSem sig)) 0 ∗ semVal ((c : Thread nD τ), SemLoc.dma (3 : DmaSem sig)) 0)
          ∗ emp ∗ ∃ r, prngReg c r) := by
  unfold Ends; rw [routed_eq, ownSems0_eq, scopedRest0_eq]
  rfl

/-- The core's debt as the next point wants it, from what the body hands back: nothing is owed and any record of
    waits is within the bound. -/
theorem owesAt_intro (c : Dev nD) (t : Fin (cfg0.N + 1)) (W' : Waits sig Unit) :
    owes (c : Thread nD τ) 0 W' ⊢ ((dats m 0 c).owesAt () t : sProp 𝕄) := by
  unfold Dat.owesAt Pipeline.owesWithin
  rw [show (dats m 0 c).owed t = 0 from rfl]
  iintro HO; iexists W'; isplitr; · ipureintro; exact fun _ _ => Or.inl trivial
  iexact HO

/-- The body at the one point: the entry invariant taken apart, the body's run applied, the exit invariant put
    together. The pipeline stages nothing, so beside the invariant and the debt there is nothing to hand over. -/
theorem sound_body (c : Dev nD) (t : Fin cfg0.N) :
    iprop((dats m 0 c).Φ t.castSucc ∗ (dats m 0 c).owesAt () t.castSucc ∗ emp)
      ⊢ wp frame (wpE (defs₀ (F := F)) Variants.none c none) Set.univ (bodyAt0 (F := F) t)
          (fun _ => iprop((dats m 0 c).Φ t.succ ∗ (dats m 0 c).owesAt () t.succ ∗ emp)) := by
  obtain rfl := fin_N0 t
  unfold bodyAt0
  rw [show (dats m 0 c).Φ t0_0.castSucc = Ends cfg0.spec osem R c (V m c) from rfl,
    show (dats m 0 c).Φ t0_0.succ = Ends cfg0.spec osem R c (Y m c) from rfl, ends_eq, ends_eq, Y_main_arg0, Y_main_v0_0, Y_main_v0_1]
  unfold Dat.owesAt Pipeline.owesWithin
  rw [show (dats m 0 c).owed t0_0.castSucc = 0 from rfl]
  iintro ⟨⟨⟨Ha, H0, H1⟩, ⟨Hs0, Hs1, Hs2, Hs3⟩, He, Hp⟩, ⟨%W, %hW, HO⟩, -⟩
  iapply (run0 c (V m c main_arg0) (V m c main_v0_0) (V m c main_v0_1) W)
  isplitl [Ha]; · iexact Ha
  isplitl [H0]; · iexact H0
  isplitl [H1]; · iexact H1
  isplitl [Hs0]; · iexact Hs0
  isplitl [Hs1]; · iexact Hs1
  isplitl [HO]; · iexact HO
  iintro ⟨Ha, H0, H1, Hs0, Hs1, HO⟩
  isplitl [Ha H0 H1 Hs0 Hs1 Hs2 Hs3 He Hp]
  · isplitl [Ha H0 H1]
    · isplitl [Ha]; · iexact Ha
      isplitl [H0]; · iexact H0
      iexact H1
    isplitl [Hs0 Hs1 Hs2 Hs3]
    · isplitl [Hs0]; · iexact Hs0
      isplitl [Hs1]; · iexact Hs1
      isplitl [Hs2]; · iexact Hs2
      iexact Hs3
    isplitl [He]; · iexact He
    iexact Hp
  isplitl [HO]
  · iexists (insert (SemLoc.dma (1 : DmaSem sig), default) (insert (SemLoc.dma (0 : DmaSem sig), default) W))
    isplitr; · ipureintro; exact fun _ _ => Or.inl trivial
    iexact HO
  iempintro

/-- The library's body obligation: with no window its staging conjuncts are empty. -/
theorem body_obligation (c : Dev nD) : BodyObligation (dats (F := F) m 0 c) (defs₀ (F := F)) 𝒱₀ () Set.univ := fun t => by
  rw [show (Finset.univ : Finset (Fin cfg0.W)) = ∅ from rfl, BI.bigSep_empty, BI.bigSep_empty]
  exact sound_body m c t

/-- The layout the launch needs of the kernel's own cells: scoped, distinct, none a staging semaphore. -/
theorem ownSemFacts : Pipeline.OwnSemFacts cfg0.spec osem := by decide

/-- At the compiled mesh, for any float values, from any memory with zero counters: every weakly fair execution of
    @main terminates, and every final state has the three routed arrays at their exit contents. -/
theorem run_main : θ_run defs (onTc (τ := τ) (main (F := F))) (s₀ m ρ) (RoutedPost cfgs (dats m) 0 R (V m) (Y m)) :=
  Pipeline.θ_run_frame_routed cfgs (dats m) 0 launch0 ownSemFacts defs₀ 𝒱₀ m ρ main
    (hbody := fun c => (body_obligation m c).loose) (hshare := fun _ w => w.elim0)
    (howed := fun _ _ => rfl) (V := V m)
    (hmain := Pipeline.hmain_region cfgs 0 defs₀ 𝒱₀ m main fun c => (main_chain c).trans rfl)
    (hA := fun _ w => w.elim0) (R := R) (hR := by decide) (Y := Y m) (hin := fun _ => .rfl) (hout := fun _ => .rfl)

/-! ## The final contents, read off the post -/

variable {m ρ}

theorem final_arg0 {r : PUnit × MemSt nD τ sig (Elt F)} (h : RoutedPost cfgs (dats m) 0 R (V m) (Y m) r) (c : Dev nD) :
    r.2.mem ((c : Thread nD τ).loc main_arg0) = m ((c : Thread nD τ).loc main_arg0) :=
  ((h c).2.1 main_arg0 (by decide)).trans ((Y_main_arg0 m c).trans (V_main_arg0 m c))

theorem final_v0_0 {r : PUnit × MemSt nD τ sig (Elt F)} (h : RoutedPost cfgs (dats m) 0 R (V m) (Y m) r) (c : Dev nD) :
    r.2.mem ((c : Thread nD τ).loc main_v0_0) = outTop c (V m c main_arg0) (V m c main_v0_0) :=
  ((h c).2.1 main_v0_0 (by decide)).trans (Y_main_v0_0 m c)

theorem final_v0_1 {r : PUnit × MemSt nD τ sig (Elt F)} (h : RoutedPost cfgs (dats m) 0 R (V m) (Y m) r) (c : Dev nD) :
    r.2.mem ((c : Thread nD τ).loc main_v0_1) = outRest c (V m c main_arg0) (V m c main_v0_1) :=
  ((h c).2.1 main_v0_1 (by decide)).trans (Y_main_v0_1 m c)

variable (m ρ)

/-- The frame: every weakly fair execution terminates, nothing faults, and the input ends as launched. -/
theorem frame : θ_run defs (onTc (τ := τ) (main (F := F))) ⟨m, fun _ => 0, ρ⟩ (fun r => ∀ c : Dev nD,
    r.2.mem ((c.tc : Thread nD τ).loc main_arg0) = m ((c.tc : Thread nD τ).loc main_arg0)) :=
  (θ_run defs _ _).mono (fun _ h c => final_arg0 h c) (run_main m ρ)

end Cert.KernelIdeal.Copy

end
-- ==== Proof.Rows.lean ====
/-
  The specification both programs are held to: a [4, 8388608] array split by rows.
  The score matrix is a constant, so the top-1 route is the constant list [0, 1, 1, 1]: token 0 goes to path 0 and
  tokens 1, 2, 3 go to path 1. Path 0's result is therefore row 0 of the input and path 1's result is rows 1..3, in
  order. Both are stated as the input read through a literal unit-stride rectangle: `top` through the rectangle at
  offset (0, 0) of size (1, 8388608), `rest` through the rectangle at offset (1, 0) of size (3, 8388608). An element
  (r, k) of a result is the input's element (offset + r, k); no arithmetic is applied to it, so nothing here depends
  on the element type.
-/
import Idealize.ShloMosaic.Shape

namespace Cert.Rows

open Idealize.ShloMosaic

/-- The input's shape, and the two results'. -/
abbrev A : Shape := ⟨2, ![4, 8388608]⟩
abbrev B0 : Shape := ⟨2, ![1, 8388608]⟩
abbrev B1 : Shape := ⟨2, ![3, 8388608]⟩

/-- Row 0 lies inside the input; so do rows 1..3. -/
theorem inb0 : ∀ a, (![0, 0] : Fin 2 → Nat) a + B0.size a ≤ A.size a := by decide
theorem inb1 : ∀ a, (![1, 0] : Fin 2 → Nat) a + B1.size a ≤ A.size a := by decide

/-- The rectangle of row 0, and the rectangle of rows 1..3. -/
abbrev rect0 : Rect A := Rect.unit (s := A) ![0, 0] B0.size inb0
abbrev rect1 : Rect A := Rect.unit (s := A) ![1, 0] B1.size inb1

variable {α : Type}

/-- Path 0's result: element (0, k) is the input's (0, k). -/
def top (x : A.Idx → α) : B0.Idx → α := fun j => x (rect0.emb j)

/-- Path 1's result: element (r, k) is the input's (1 + r, k). -/
def rest (x : A.Idx → α) : B1.Idx → α := fun j => x (rect1.emb j)

end Cert.Rows
-- ==== Proof.KernelIdealValue.lean ====
/-
  What the kernel's results hold when it ends. A transfer into the whole of a result overwrites every element, so
  the result's earlier contents do not matter: result 0 is exactly what the first transfer moved, the input read
  through the rectangle of row 0, and result 1 what the second moved, the input through the rectangle of rows 1..3.
-/
import proofs.«167561_j46308337386319_2_alg».proof.Proof.KernelIdealRun
import proofs.«167561_j46308337386319_2_alg».proof.Proof.Rows

noncomputable section

namespace Cert.KernelIdeal.Copy

open Cert.KernelIdeal Cert.KernelIdeal.Gen
open Idealize.ShloMosaic Idealize.ShloMosaic.TcCoe Idealize.SL.Sem

variable {F : FTy → Type} [FloatOps F]

/-- What each transfer moves is the input through its source rectangle. -/
theorem movedTop_eq (c : Dev nD) (fa : Bf (F := F) c (Memref.whole main_arg0)) : movedTop c fa = Cert.Rows.top fa := rfl
theorem movedRest_eq (c : Dev nD) (fa : Bf (F := F) c (Memref.whole main_arg0)) : movedRest c fa = Cert.Rows.rest fa := rfl

/-- Read through the whole of a result, its contents are themselves (stated of any contents `g`). -/
theorem read_whole_v0_0 (c : Dev nD) (g : Bf (F := F) c (Memref.whole main_v0_0)) : (Memref.whole main_v0_0).view.read (Elt F) g = g := rfl
theorem read_whole_v0_1 (c : Dev nD) (g : Bf (F := F) c (Memref.whole main_v0_1)) : (Memref.whole main_v0_1).view.read (Elt F) g = g := rfl

/-- A result overwritten everywhere reads back as what was written. -/
theorem outTop_eq (c : Dev nD) (fa : Bf (F := F) c (Memref.whole main_arg0)) (f0 : Bf (F := F) c (Memref.whole main_v0_0)) :
    outTop c fa f0 = Cert.Rows.top fa := by
  rw [← movedTop_eq c fa]
  exact (read_whole_v0_0 c (outTop c fa f0)).symm.trans
    (View.read_write_univ (v := (Memref.whole main_v0_0).view) (Val := Elt F) f0 (movedTop c fa))
theorem outRest_eq (c : Dev nD) (fa : Bf (F := F) c (Memref.whole main_arg0)) (f1 : Bf (F := F) c (Memref.whole main_v0_1)) :
    outRest c fa f1 = Cert.Rows.rest fa := by
  rw [← movedRest_eq c fa]
  exact (read_whole_v0_1 c (outRest c fa f1)).symm.trans
    (View.read_write_univ (v := (Memref.whole main_v0_1).view) (Val := Elt F) f1 (movedRest c fa))

variable (m : (ℓ : Loc nD τ sig) → Buf (Elt F) ℓ) (ρ : Dev nD → PrngReg)

/-- The kernel's run with its results named: result 0 is the launch input's row 0, result 1 its rows 1..3, and the
    input ends as launched. -/
theorem run_value : θ_run defs (onTc (τ := τ) (main (F := F))) ⟨m, fun _ => 0, ρ⟩ (fun r => ∀ c : Dev nD,
    r.2.mem ((c.tc : Thread nD τ).loc main_v0_0) = Cert.Rows.top (m ((c.tc : Thread nD τ).loc main_arg0))
    ∧ r.2.mem ((c.tc : Thread nD τ).loc main_v0_1) = Cert.Rows.rest (m ((c.tc : Thread nD τ).loc main_arg0))
    ∧ r.2.mem ((c.tc : Thread nD τ).loc main_arg0) = m ((c.tc : Thread nD τ).loc main_arg0)) :=
  (θ_run defs _ _).mono (fun _ h c => ⟨(final_v0_0 h c).trans (outTop_eq c _ _), (final_v0_1 h c).trans (outRest_eq c _ _), final_arg0 h c⟩)
    (run_main m ρ)

end Cert.KernelIdeal.Copy

end
-- ==== Proof.ReferenceRun.lean ====
/-
  The reference program's run, read back. The reference is twenty host operations and no kernel: for each path it
  builds the list of token rows routed to it ([0] for path 0, [1, 2, 3] for path 1), wraps a negative entry around
  by adding the row count 4, and gathers those rows of the input whole. Listed in order, the operations run one
  after another from any launch memory; every weakly fair execution terminates, each buffer ends at the composed
  term of the operations that wrote it, and the input — which no operation writes — ends as launched.
-/
import proofs.«167561_j46308337386319_2_alg».proof.Proof.Gen.ReferenceIdeal
import Idealize.ShloMosaic.Lib.StableHlo.Run

noncomputable section

namespace Cert.ReferenceIdeal.Rows

open Cert.ReferenceIdeal Cert.ReferenceIdeal.Gen Idealize.ShloMosaic Idealize.ShloMosaic.TcCoe Idealize.SL.Sem Idealize.ShloMosaic.StableHlo

variable {F : FTy → Type} [FloatOps F]

/-- The two gathers as binary functions of the input and a column of row numbers. -/
abbrev gatherTop : (⟨S4x8388608, .f32⟩ : BufTy).Contents (Elt F) → (⟨S1x1, .i32⟩ : BufTy).Contents (Elt F) → (⟨S1x8388608, .f32⟩ : BufTy).Contents (Elt F) :=
  fun x i => Host.gather gather_S4x8388608_S1x1_S1x8388608_1_0_n_n_0_1_18388608 x i
abbrev gatherRest : (⟨S4x8388608, .f32⟩ : BufTy).Contents (Elt F) → (⟨S3x1, .i32⟩ : BufTy).Contents (Elt F) → (⟨S3x8388608, .f32⟩ : BufTy).Contents (Elt F) :=
  fun x i => Host.gather gather_S4x8388608_S3x1_S3x8388608_1_0_n_n_0_1_18388608 x i

/-- @main's twenty operations, in order. -/
abbrev ops : List (HloOp τ sig (Elt F)) :=
  [ nullary main_c (constantI S1 32 0#32),
    nullary main_c_0 (fun i => lit0 (S3.rowMajor i)),
    nullary main_c_1 (constantI S_ 32 0#32),
    unary main_c_1 main_v0 (broadcastInDim S1 ![] bcast_S_S1 : (⟨S_, .i32⟩ : BufTy).Contents (Elt F) → (⟨S1, .i32⟩ : BufTy).Contents (Elt F)),
    binary main_c main_v0 main_v1 (cmpi .slt : (⟨S1, .i32⟩ : BufTy).Contents (Elt F) → (⟨S1, .i32⟩ : BufTy).Contents (Elt F) → (⟨S1, .i1⟩ : BufTy).Contents (Elt F)),
    nullary main_c_2 (constantI S_ 32 4#32),
    unary main_c_2 main_v2 (broadcastInDim S1 ![] bcast_S_S1 : (⟨S_, .i32⟩ : BufTy).Contents (Elt F) → (⟨S1, .i32⟩ : BufTy).Contents (Elt F)),
    binary main_c main_v2 main_v3 (addi : (⟨S1, .i32⟩ : BufTy).Contents (Elt F) → (⟨S1, .i32⟩ : BufTy).Contents (Elt F) → (⟨S1, .i32⟩ : BufTy).Contents (Elt F)),
    ternary main_v1 main_v3 main_c main_v4 (select : (⟨S1, .i1⟩ : BufTy).Contents (Elt F) → (⟨S1, .i32⟩ : BufTy).Contents (Elt F) → (⟨S1, .i32⟩ : BufTy).Contents (Elt F) → (⟨S1, .i32⟩ : BufTy).Contents (Elt F)),
    unary main_v4 main_v5 (broadcastInDim S1x1 ![0] bcast_S1_S1x1_0 : (⟨S1, .i32⟩ : BufTy).Contents (Elt F) → (⟨S1x1, .i32⟩ : BufTy).Contents (Elt F)),
    binary main_arg0 main_v5 main_v6 (gatherTop (F := F)),
    nullary main_c_3 (constantI S_ 32 0#32),
    unary main_c_3 main_v7 (broadcastInDim S3 ![] bcast_S_S3 : (⟨S_, .i32⟩ : BufTy).Contents (Elt F) → (⟨S3, .i32⟩ : BufTy).Contents (Elt F)),
    binary main_c_0 main_v7 main_v8 (cmpi .slt : (⟨S3, .i32⟩ : BufTy).Contents (Elt F) → (⟨S3, .i32⟩ : BufTy).Contents (Elt F) → (⟨S3, .i1⟩ : BufTy).Contents (Elt F)),
    nullary main_c_4 (constantI S_ 32 4#32),
    unary main_c_4 main_v9 (broadcastInDim S3 ![] bcast_S_S3 : (⟨S_, .i32⟩ : BufTy).Contents (Elt F) → (⟨S3, .i32⟩ : BufTy).Contents (Elt F)),
    binary main_c_0 main_v9 main_v10 (addi : (⟨S3, .i32⟩ : BufTy).Contents (Elt F) → (⟨S3, .i32⟩ : BufTy).Contents (Elt F) → (⟨S3, .i32⟩ : BufTy).Contents (Elt F)),
    ternary main_v8 main_v10 main_c_0 main_v11 (select : (⟨S3, .i1⟩ : BufTy).Contents (Elt F) → (⟨S3, .i32⟩ : BufTy).Contents (Elt F) → (⟨S3, .i32⟩ : BufTy).Contents (Elt F) → (⟨S3, .i32⟩ : BufTy).Contents (Elt F)),
    unary main_v11 main_v12 (broadcastInDim S3x1 ![0] bcast_S3_S3x1_0 : (⟨S3, .i32⟩ : BufTy).Contents (Elt F) → (⟨S3x1, .i32⟩ : BufTy).Contents (Elt F)),
    binary main_arg0 main_v12 main_v13 (gatherRest (F := F)) ]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨nullary_bufs_sub .., nullary_bufs_sub .., nullary_bufs_sub .., unary_bufs_sub .., binary_bufs_sub .., nullary_bufs_sub ..,
   unary_bufs_sub .., binary_bufs_sub .., ternary_bufs_sub .., unary_bufs_sub .., binary_bufs_sub .., nullary_bufs_sub ..,
   unary_bufs_sub .., binary_bufs_sub .., nullary_bufs_sub .., unary_bufs_sub .., binary_bufs_sub .., ternary_bufs_sub ..,
   unary_bufs_sub .., binary_bufs_sub ..⟩

/-- The column of row numbers each gather reads: the path's token list, a negative entry wrapped by 4. -/
def idxTop : (⟨S1x1, .i32⟩ : BufTy).Contents (Elt F) :=
  broadcastInDim S1x1 ![0] bcast_S1_S1x1_0
    (select (cmpi .slt (constantI S1 32 0#32) (broadcastInDim S1 ![] bcast_S_S1 (constantI S_ 32 0#32)))
      (addi (constantI S1 32 0#32) (broadcastInDim S1 ![] bcast_S_S1 (constantI S_ 32 4#32))) (constantI S1 32 0#32))
def idxRest : (⟨S3x1, .i32⟩ : BufTy).Contents (Elt F) :=
  broadcastInDim S3x1 ![0] bcast_S3_S3x1_0
    (select (cmpi .slt (fun i => lit0 (S3.rowMajor i)) (broadcastInDim S3 ![] bcast_S_S3 (constantI S_ 32 0#32)))
      (addi (fun i => lit0 (S3.rowMajor i)) (broadcastInDim S3 ![] bcast_S_S3 (constantI S_ 32 4#32))) (fun i => lit0 (S3.rowMajor i)))

/-- On every device, for any float values, from any memory with zero counters: every weakly fair execution of @main
    terminates with result 0 the gather of the input at path 0's column, result 1 the gather at path 1's column, and
    the input as launched. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v6) = gatherTop (F := F) (m ((c.tc : Thread nD τ).loc main_arg0)) (idxTop (F := F))
      ∧ r.2.mem ((c.tc : Thread nD τ).loc main_v13) = gatherRest (F := F) (m ((c.tc : Thread nD τ).loc main_arg0)) (idxRest (F := F))
      ∧ r.2.mem ((c.tc : Thread nD τ).loc main_arg0) = m ((c.tc : Thread nD τ).loc main_arg0) :=
  (θ_run defs _ _).mono (fun _ h c => ⟨(h c main_v6).trans (by unfold idxTop; after_results <;> rfl),
      (h c main_v13).trans (by unfold idxRest; after_results <;> rfl),
      (h c main_arg0).trans (by after_results <;> rfl)⟩)
    (run_seq scopedRefs_eq scopedSems_eq defs main (fun _ => ops) main_eq (fun _ => ops_sub) m ρ)

end Cert.ReferenceIdeal.Rows

end
-- ==== Proof.ReferenceValue.lean ====
/-
  The reference's two results are the input's row 0 and rows 1..3. Each result is a gather of whole rows: element
  (r, k) of the result is the input's element (row, k), where `row` is entry r of the path's column of row numbers,
  read as a signed integer and clamped into [0, 3] (the slice is one row tall in an array of four). Path 0's column is
  the one entry 0; path 1's is 1, 2, 3; none is negative, so the wrap-around by 4 selects the entry itself, and
  none exceeds 3, so the clamp changes nothing. Hence result 0 reads (0 + r, k) with r = 0 and result 1 reads
  (1 + r, k): the input through the rectangles at offsets (0, 0) and (1, 0).
-/
import proofs.«167561_j46308337386319_2_alg».proof.Proof.ReferenceRun
import proofs.«167561_j46308337386319_2_alg».proof.Proof.Rows
import Idealize.ShloMosaic.Lib.ValueIdx

noncomputable section

namespace Cert.ReferenceIdeal.Rows

open Cert.ReferenceIdeal Cert.ReferenceIdeal.Gen Idealize.ShloMosaic Idealize.ShloMosaic.ValueIdx

variable {F : FTy → Type} [FloatOps F]

/-- Path 0's column holds the row number 0. -/
theorem idxTop_apply (i : S1x1.Idx) : (idxTop (F := F) i).toInt.toNat = 0 := by
  obtain ⟨p, q, rfl⟩ : ∃ (p : Fin 1) (q : Fin 1), i = ix2 p q := ⟨i 0, i 1, eq_ix2 i⟩
  obtain rfl : p = 0 := Subsingleton.elim _ _
  obtain rfl : q = 0 := Subsingleton.elim _ _
  rfl

/-- Path 1's column holds the row numbers 1, 2, 3: entry r is r + 1. -/
theorem idxRest_apply (i : S3x1.Idx) : (idxRest (F := F) i).toInt.toNat = (i 0).val + 1 := by
  obtain ⟨p, q, rfl⟩ : ∃ (p : Fin 3) (q : Fin 1), i = ix2 p q := ⟨i 0, i 1, eq_ix2 i⟩
  obtain rfl : q = 0 := Subsingleton.elim _ _
  match p with
  | ⟨0, _⟩ => rfl
  | ⟨1, _⟩ => rfl
  | ⟨2, _⟩ => rfl

/-- The printed dimension numbers of the two gathers. -/
abbrev dTop := gather_S4x8388608_S1x1_S1x8388608_1_0_n_n_0_1_18388608
abbrev dRest := gather_S4x8388608_S3x1_S3x8388608_1_0_n_n_0_1_18388608

/-- Result 0 is the input's row 0: on the first axis the clamped row number 0 and no offset, on the second axis no
    start and the result's own column. -/
theorem gatherTop_eq (x : (⟨S4x8388608, .f32⟩ : BufTy).Contents (Elt F)) :
    gatherTop (F := F) x (idxTop (F := F)) = Cert.Rows.top x := by
  funext j
  show x (dTop.operandIdx j (idxTop (F := F))) = x (Cert.Rows.rect0.emb j)
  refine congrArg x ?_
  funext a
  refine Fin.ext ?_
  show dTop.start j (idxTop (F := F)) a + dTop.batchCoord j a + dTop.offCoord j a = Cert.Rows.rect0.off a + 1 * (j a).val
  match a with
  | ⟨0, _⟩ =>
    show min (idxTop (F := F) _).toInt.toNat 3 + 0 + 0 = 0 + 1 * (j 0).val
    rw [idxTop_apply]
    have := idx2_lt0 j
    omega
  | ⟨1, _⟩ =>
    show 0 + 0 + (j 1).val = 0 + 1 * (j 1).val
    omega

/-- Result 1 is the input's rows 1..3: on the first axis the clamped row number r + 1, on the second the result's
    own column. -/
theorem gatherRest_eq (x : (⟨S4x8388608, .f32⟩ : BufTy).Contents (Elt F)) :
    gatherRest (F := F) x (idxRest (F := F)) = Cert.Rows.rest x := by
  funext j
  show x (dRest.operandIdx j (idxRest (F := F))) = x (Cert.Rows.rect1.emb j)
  refine congrArg x ?_
  funext a
  refine Fin.ext ?_
  show dRest.start j (idxRest (F := F)) a + dRest.batchCoord j a + dRest.offCoord j a = Cert.Rows.rect1.off a + 1 * (j a).val
  match a with
  | ⟨0, _⟩ =>
    show min (idxRest (F := F) _).toInt.toNat 3 + 0 + 0 = 1 + 1 * (j 0).val
    rw [idxRest_apply]
    show min ((j 0).val + 1) 3 + 0 + 0 = 1 + 1 * (j 0).val
    have := idx2_lt0 j
    omega
  | ⟨1, _⟩ =>
    show 0 + 0 + (j 1).val = 0 + 1 * (j 1).val
    omega

end Cert.ReferenceIdeal.Rows

end
-- ==== Proof.lean ====
/-
  Top-1 routing with a constant score matrix, against its gather reference.
  The score matrix is a literal, so each token's path is known before anything runs: token 0 goes to path 0, tokens
  1, 2, 3 to path 1. Each path receives its tokens' rows of the input [4, 8388608] in order, and nothing is computed
  on them. The kernel does this with two copies between arrays left in HBM — row 0 into result 0, rows 1..3 into
  result 1 — started together and then both waited for. The reference gathers, per path, the rows its list of row
  numbers names ([0] and [1, 2, 3], a negative number wrapped by 4, the start clamped into the array).
  Both sides are the same two functions of the input (Proof/Rows.lean): the input read through the rectangle at
  offset (0, 0) of size (1, 8388608), and through the rectangle at offset (1, 0) of size (3, 8388608). On the kernel's
  side a copy into a whole result leaves it at what was moved, which is the source rectangle's read
  (Proof/KernelIdealBody.lean, KernelIdealRun.lean, KernelIdealValue.lean); on the reference's side a gather of whole
  rows at the rows 0, resp. 1, 2, 3 reads the same elements (Proof/ReferenceRun.lean, ReferenceValue.lean). No float
  operation is applied anywhere, so equality holds element by element for every input, finite or not, and the
  precondition is not used. The idealization rewrote nothing, so `preserves` has no conjunct.
  The frames: the kernel's copies read the input and write only the results, every transfer started is waited for,
  and the input's contents come back unchanged at both instances (Proof/KernelRun.lean at the word level); the
  reference's twenty host operations never write the input.
-/
import proofs.«167561_j46308337386319_2_alg».proof.Defs
import proofs.«167561_j46308337386319_2_alg».proof.Proof.Gen.Kernel
import proofs.«167561_j46308337386319_2_alg».proof.Proof.Gen.KernelIdeal
import proofs.«167561_j46308337386319_2_alg».proof.Proof.Gen.ReferenceIdeal
import proofs.«167561_j46308337386319_2_alg».proof.Proof.Gen.Pre_finite_inputs
import proofs.«167561_j46308337386319_2_alg».proof.Proof.KernelRun
import proofs.«167561_j46308337386319_2_alg».proof.Proof.KernelIdealValue
import proofs.«167561_j46308337386319_2_alg».proof.Proof.ReferenceValue
import Idealize.ShloMosaic.Adequacy
import Idealize.ShloMosaic.Init

noncomputable section

namespace Cert.Proof

open Idealize.ShloMosaic Idealize.SL.Sem

/-- The word-level kernel terminates, faults nowhere, and leaves the input as launched. -/
theorem frame_k : Cert.frame_Kernel := fun m ρ _ => Cert.Kernel.Copy.frame (F := Bits) m ρ

/-- So does the kernel read over the extended reals. -/
theorem frame_ki : Cert.frame_KernelIdeal := fun m ρ _ => Cert.KernelIdeal.Copy.frame (F := Ideal) m ρ

/-- The reference terminates and never writes the input. -/
theorem frame_ri : Cert.frame_ReferenceIdeal := fun m ρ _ =>
  (θ_run Cert.ReferenceIdeal.defs _ _).mono (fun _ h c => (h c).2.2) (Cert.ReferenceIdeal.Rows.run (F := Ideal) m ρ)

/-- From memories agreeing on the input both programs end with result 0 the input's row 0 and result 1 its rows
    1..3: the kernel by what its two copies moved, the reference by what its two gathers read. -/
theorem algebraic : Cert.algebraic_KernelIdeal_ReferenceIdeal := by
  intro m ρ m' ρ' _ hagree
  refine ⟨fun c => Cert.Rows.top (m ((c.tc : Thread Cert.KernelIdeal.nD Cert.KernelIdeal.τ).loc Cert.KernelIdeal.main_arg0)),
    fun c => Cert.Rows.rest (m ((c.tc : Thread Cert.KernelIdeal.nD Cert.KernelIdeal.τ).loc Cert.KernelIdeal.main_arg0)),
    Cert.KernelIdeal.Copy.run_value (F := Ideal) m ρ, ?_⟩
  refine (θ_run Cert.ReferenceIdeal.defs _ _).mono (fun _ h c => ⟨?_, ?_, (h c).2.2⟩)
    (Cert.ReferenceIdeal.Rows.run (F := Ideal) m' ρ')
  · rw [(h c).1, Cert.ReferenceIdeal.Rows.gatherTop_eq, hagree c]
  · rw [(h c).2.1, Cert.ReferenceIdeal.Rows.gatherRest_eq, hagree c]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
